-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64x16 : Shape := ⟨3, ![1024, 64, 16]⟩
abbrev S64x16 : Shape := ⟨2, ![64, 16]⟩
abbrev S_ : Shape := ⟨0, ![]⟩

class Facts : Prop where
  bcast_S_S1024x64x16 : S_.BroadcastsInDim S1024x64x16 (![] : Fin 0 → Fin S1024x64x16.rank)
  reducesTo_S1024x64x16_S_d0_1_2 : S1024x64x16.ReducesTo [0, 1, 2] S_
  h_S_ : 0 < S_.numel
  bcast_S_S64x16 : S_.BroadcastsInDim S64x16 (![] : Fin 0 → Fin S64x16.rank)
  reducesTo_S64x16_S_d0_1 : S64x16.ReducesTo [0, 1] S_

variable [Facts]

def fn {F : FTy → Type} [FloatOps F] (main_arg0 : FVec F S1024x64x16 .f32) (main_arg1 : FVec F S64x16 .f32) : IVec S_ 1 :=
  let main_v0 : FVec F S1024x64x16 .f32 := Host.absf main_arg0
  let main_cst : FVec F S_ .f32 := constant S_ .f32 0x7F800000#32
  let main_v1 : FVec F S1024x64x16 .f32 := broadcastInDim S1024x64x16 ![] bcast_S_S1024x64x16 main_cst
  let main_v2 : IVec S1024x64x16 1 := cmpf .olt main_v0 main_v1
  let main_c : IVec S_ 1 := constantI S_ 1 1#1
  let main_v3 : IVec S_ 1 := (fun x v => Host.reduce IntOp.andi x v reducesTo_S1024x64x16_S_d0_1_2 h_S_) main_v2 main_c
  let main_v4 : FVec F S64x16 .f32 := Host.absf main_arg1
  let main_cst_0 : FVec F S_ .f32 := constant S_ .f32 0x7F800000#32
  let main_v5 : FVec F S64x16 .f32 := broadcastInDim S64x16 ![] bcast_S_S64x16 main_cst_0
  let main_v6 : IVec S64x16 1 := cmpf .olt main_v4 main_v5
  let main_c_1 : IVec S_ 1 := constantI S_ 1 1#1
  let main_v7 : IVec S_ 1 := (fun x v => Host.reduce IntOp.andi x v reducesTo_S64x16_S_d0_1 h_S_) main_v6 main_c_1
  let main_v8 : IVec S_ 1 := andi main_v3 main_v7
  main_v8
-- ==== Kernel.lean ====
abbrev S1024x64x16 : Shape := ⟨3, ![1024, 64, 16]⟩
abbrev S64x16 : Shape := ⟨2, ![64, 16]⟩
abbrev S16x64 : Shape := ⟨2, ![16, 64]⟩
abbrev S64x64 : Shape := ⟨2, ![64, 64]⟩
abbrev S16x1024x64 : Shape := ⟨3, ![16, 1024, 64]⟩
abbrev S16x64x64 : Shape := ⟨3, ![16, 64, 64]⟩
abbrev S1x64x64 : Shape := ⟨3, ![1, 64, 64]⟩
abbrev S64x64x1 : Shape := ⟨3, ![64, 64, 1]⟩
abbrev S64x1x64 : Shape := ⟨3, ![64, 1, 64]⟩
abbrev S64x64x64 : Shape := ⟨3, ![64, 64, 64]⟩

abbrev nBuf : Space → Nat
  | .hbm => 7
  | .vmem => 6
  | .smem => 0
  | _ => 0

abbrev bufTy : (tb : Table) → Fin (tcTables nBuf tb) → BufTy
  | .hbm, ⟨0, _⟩ => ⟨S1024x64x16, .f32⟩
  | .hbm, ⟨1, _⟩ => ⟨S64x16, .f32⟩
  | .hbm, ⟨2, _⟩ => ⟨S16x64, .f32⟩
  | .hbm, ⟨3, _⟩ => ⟨S64x64, .f32⟩
  | .hbm, ⟨4, _⟩ => ⟨S16x1024x64, .f32⟩
  | .hbm, ⟨5, _⟩ => ⟨S16x1024x64, .f32⟩
  | .hbm, ⟨6, _⟩ => ⟨S1024x64x16, .f32⟩
  | .local _ .vmem, ⟨0, _⟩ => ⟨S16x64x64, .f32⟩
  | .local _ .vmem, ⟨1, _⟩ => ⟨S16x64x64, .f32⟩
  | .local _ .vmem, ⟨2, _⟩ => ⟨S64x64, .f32⟩
  | .local _ .vmem, ⟨3, _⟩ => ⟨S16x64x64, .f32⟩
  | .local _ .vmem, ⟨4, _⟩ => ⟨S16x64x64, .f32⟩
  | .local _ .vmem, ⟨5, _⟩ => ⟨S16x64x64, .f32⟩
  | _, _ => ⟨S1024x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S16x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S64x16_S16x64_1_0 : S64x16.Transposes [1, 0] S16x64
  transposes_S1024x64x16_S16x1024x64_2_0_1 : S1024x64x16.Transposes [2, 0, 1] S16x1024x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S16x64x64_S1x64x64_0_0_0 : ∀ a, (![0, 0, 0] : Fin 3 → Nat) a + S1x64x64.size a ≤ S16x64x64.size a
  h_S1x64x64 : 0 < S1x64x64.numel
  shapeCasts_S1x64x64_S64x64 : S1x64x64.ShapeCasts S64x64
  shapeCasts_S64x64_S64x64x1 : S64x64.ShapeCasts S64x64x1
  shapeCasts_S64x64_S64x1x64 : S64x64.ShapeCasts S64x1x64
  broadcasts_S64x64x1_S64x64x64 : S64x64x1.Broadcasts S64x64x64
  broadcasts_S64x1x64_S64x64x64 : S64x1x64.Broadcasts S64x64x64
  shapeCasts_S64x64_S1x64x64 : S64x64.ShapeCasts S1x64x64
  broadcasts_S1x64x64_S64x64x64 : S1x64x64.Broadcasts S64x64x64
  reduces_S64x64x64_S64x64 : S64x64x64.Reduces [2] S64x64
  shapeCasts_S64x64x1_S64x64 : S64x64x1.ShapeCasts S64x64
  inb_S16x64x64_S1x64x64_1_0_0 : ∀ a, (![1, 0, 0] : Fin 3 → Nat) a + S1x64x64.size a ≤ S16x64x64.size a
  inb_S16x64x64_S1x64x64_2_0_0 : ∀ a, (![2, 0, 0] : Fin 3 → Nat) a + S1x64x64.size a ≤ S16x64x64.size a
  inb_S16x64x64_S1x64x64_3_0_0 : ∀ a, (![3, 0, 0] : Fin 3 → Nat) a + S1x64x64.size a ≤ S16x64x64.size a
  inb_S16x64x64_S1x64x64_4_0_0 : ∀ a, (![4, 0, 0] : Fin 3 → Nat) a + S1x64x64.size a ≤ S16x64x64.size a
  inb_S16x64x64_S1x64x64_5_0_0 : ∀ a, (![5, 0, 0] : Fin 3 → Nat) a + S1x64x64.size a ≤ S16x64x64.size a
  inb_S16x64x64_S1x64x64_6_0_0 : ∀ a, (![6, 0, 0] : Fin 3 → Nat) a + S1x64x64.size a ≤ S16x64x64.size a
  inb_S16x64x64_S1x64x64_7_0_0 : ∀ a, (![7, 0, 0] : Fin 3 → Nat) a + S1x64x64.size a ≤ S16x64x64.size a
  inb_S16x64x64_S1x64x64_8_0_0 : ∀ a, (![8, 0, 0] : Fin 3 → Nat) a + S1x64x64.size a ≤ S16x64x64.size a
  inb_S16x64x64_S1x64x64_9_0_0 : ∀ a, (![9, 0, 0] : Fin 3 → Nat) a + S1x64x64.size a ≤ S16x64x64.size a
  inb_S16x64x64_S1x64x64_10_0_0 : ∀ a, (![10, 0, 0] : Fin 3 → Nat) a + S1x64x64.size a ≤ S16x64x64.size a
  inb_S16x64x64_S1x64x64_11_0_0 : ∀ a, (![11, 0, 0] : Fin 3 → Nat) a + S1x64x64.size a ≤ S16x64x64.size a
  inb_S16x64x64_S1x64x64_12_0_0 : ∀ a, (![12, 0, 0] : Fin 3 → Nat) a + S1x64x64.size a ≤ S16x64x64.size a
  inb_S16x64x64_S1x64x64_13_0_0 : ∀ a, (![13, 0, 0] : Fin 3 → Nat) a + S1x64x64.size a ≤ S16x64x64.size a
  inb_S16x64x64_S1x64x64_14_0_0 : ∀ a, (![14, 0, 0] : Fin 3 → Nat) a + S1x64x64.size a ≤ S16x64x64.size a
  inb_S16x64x64_S1x64x64_15_0_0 : ∀ a, (![15, 0, 0] : Fin 3 → Nat) a + S1x64x64.size a ≤ S16x64x64.size a
  inb_S16x64x64_S16x64x64_0_0_0 : ∀ a, (![0, 0, 0] : Fin 3 → Nat) a + S16x64x64.size a ≤ S16x64x64.size a
  h_S16x64x64 : 0 < S16x64x64.numel
  transposes_S16x1024x64_S1024x64x16_1_2_0 : S16x1024x64.Transposes [1, 2, 0] S1024x64x16
  dot_S64x16_S16x64_S64x64_1_0_0_1_n_n_wf : DotDims.WF S64x16 S16x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64x64.size a ≤ S16x1024x64.size a
  hwx0_0 : ∀ i : grid0.Coords, EltTy.bits .f32 = 32 ∨ (Rect.block (s := S16x1024x64) S16x64x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x64x64.size a ≤ S16x1024x64.size a
  hwx0_2 : ∀ i : grid0.Coords, EltTy.bits .f32 = 32 ∨ (Rect.block (s := S16x1024x64) S16x64x64.size (cc0_transform_2 i) (hinb0_2 i)).WholeWords (EltTy.packing .f32)

variable [Facts₀]

def dot_S64x16_S16x64_S64x64_1_0_0_1_n_n : DotDims S64x16 S16x64 S64x64 where
  lhsContracting := [1]
  rhsContracting := [0]
  lhsNonContracting := [0]
  rhsNonContracting := [1]
  lhsBatch := []
  rhsBatch := []
  wf := dot_S64x16_S16x64_S64x64_1_0_0_1_n_n_wf

abbrev win0_0 : Pipeline.Window sig grid0 :=
  Pipeline.Window.ofSpec (Memref.whole main_v2) S16x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S16x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x64x16 : Shape := ⟨3, ![1024, 64, 16]⟩
abbrev S64x16 : Shape := ⟨2, ![64, 16]⟩
abbrev S1024x16x64 : Shape := ⟨3, ![1024, 16, 64]⟩
abbrev S1024x16x64x1 : Shape := ⟨4, ![1024, 16, 64, 1]⟩
abbrev S1024x16x1x64 : Shape := ⟨4, ![1024, 16, 1, 64]⟩
abbrev S1024x16x64x64 : Shape := ⟨4, ![1024, 16, 64, 64]⟩
abbrev S16x64 : Shape := ⟨2, ![16, 64]⟩
abbrev S64x64 : Shape := ⟨2, ![64, 64]⟩
abbrev S1x1x64x64 : Shape := ⟨4, ![1, 1, 64, 64]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S1024x64x16, .f32⟩
  | .hbm, ⟨1, _⟩ => ⟨S64x16, .f32⟩
  | .hbm, ⟨2, _⟩ => ⟨S1024x16x64, .f32⟩
  | .hbm, ⟨3, _⟩ => ⟨S1024x16x64x1, .f32⟩
  | .hbm, ⟨4, _⟩ => ⟨S1024x16x1x64, .f32⟩
  | .hbm, ⟨5, _⟩ => ⟨S1024x16x64x64, .f32⟩
  | .hbm, ⟨6, _⟩ => ⟨S1024x16x64x64, .f32⟩
  | .hbm, ⟨7, _⟩ => ⟨S1024x16x64x64, .f32⟩
  | .hbm, ⟨8, _⟩ => ⟨S16x64, .f32⟩
  | .hbm, ⟨9, _⟩ => ⟨S64x64, .f32⟩
  | .hbm, ⟨10, _⟩ => ⟨S1x1x64x64, .f32⟩
  | .hbm, ⟨11, _⟩ => ⟨S1024x16x64x64, .f32⟩
  | .hbm, ⟨12, _⟩ => ⟨S1024x16x64x64, .f32⟩
  | .hbm, ⟨13, _⟩ => ⟨S_, .f32⟩
  | .hbm, ⟨14, _⟩ => ⟨S1024x16x64, .f32⟩
  | .hbm, ⟨15, _⟩ => ⟨S_, .f32⟩
  | .hbm, ⟨16, _⟩ => ⟨S1024x16x64, .f32⟩
  | .hbm, ⟨17, _⟩ => ⟨S1024x16x64, .f32⟩
  | .hbm, ⟨18, _⟩ => ⟨S1024x16x64x1, .f32⟩
  | .hbm, ⟨19, _⟩ => ⟨S1024x16x64x64, .f32⟩
  | .hbm, ⟨20, _⟩ => ⟨S1024x16x64x64, .f32⟩
  | .hbm, ⟨21, _⟩ => ⟨S1024x16x64x64, .f32⟩
  | .hbm, ⟨22, _⟩ => ⟨S_, .f32⟩
  | .hbm, ⟨23, _⟩ => ⟨S1024x16x64, .f32⟩
  | .hbm, ⟨24, _⟩ => ⟨S1024x16x64x1, .f32⟩
  | .hbm, ⟨25, _⟩ => ⟨S1024x16x64x64, .f32⟩
  | .hbm, ⟨26, _⟩ => ⟨S1024x16x64x64, .f32⟩
  | .hbm, ⟨27, _⟩ => ⟨S1024x16x64x64, .f32⟩
  | .hbm, ⟨28, _⟩ => ⟨S_, .f32⟩
  | .hbm, ⟨29, _⟩ => ⟨S1024x16x64, .f32⟩
  | .hbm, ⟨30, _⟩ => ⟨S1024x64x16, .f32⟩
  | _, _ => ⟨S1024x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]

class Facts₀ : Prop where
  transposes_S1024x64x16_S1024x16x64_0_2_1 : S1024x64x16.Transposes [0, 2, 1] S1024x16x64
  bcast_S1024x16x64_S1024x16x64x1_0_1_2 : S1024x16x64.BroadcastsInDim S1024x16x64x1 (![0, 1, 2] : Fin 3 → Fin S1024x16x64x1.rank)
  transposes_S1024x16x64x1_S1024x16x1x64_0_1_3_2 : S1024x16x64x1.Transposes [0, 1, 3, 2] S1024x16x1x64
  bcast_S1024x16x64x1_S1024x16x64x64_0_1_2_3 : S1024x16x64x1.BroadcastsInDim S1024x16x64x64 (![0, 1, 2, 3] : Fin 4 → Fin S1024x16x64x64.rank)
  bcast_S1024x16x1x64_S1024x16x64x64_0_1_2_3 : S1024x16x1x64.BroadcastsInDim S1024x16x64x64 (![0, 1, 2, 3] : Fin 4 → Fin S1024x16x64x64.rank)
  transposes_S64x16_S16x64_1_0 : S64x16.Transposes [1, 0] S16x64
  bcast_S64x64_S1x1x64x64_2_3 : S64x64.BroadcastsInDim S1x1x64x64 (![2, 3] : Fin 2 → Fin S1x1x64x64.rank)
  bcast_S1x1x64x64_S1024x16x64x64_0_1_2_3 : S1x1x64x64.BroadcastsInDim S1024x16x64x64 (![0, 1, 2, 3] : Fin 4 → Fin S1024x16x64x64.rank)
  reducesTo_S1024x16x64x64_S1024x16x64_d3 : S1024x16x64x64.ReducesTo [3] S1024x16x64
  h_S_ : 0 < S_.numel
  bcast_S_S1024x16x64 : S_.BroadcastsInDim S1024x16x64 (![] : Fin 0 → Fin S1024x16x64.rank)
  transposes_S1024x16x64_S1024x64x16_0_2_1 : S1024x16x64.Transposes [0, 2, 1] S1024x64x16
  dot_S64x16_S16x64_S64x64_1_0_0_1_n_n_wf : DotDims.WF S64x16 S16x64 S64x64 [1] [0] [0] [1] [] []

variable [Facts₀]

def dot_S64x16_S16x64_S64x64_1_0_0_1_n_n : DotDims S64x16 S16x64 S64x64 where
  lhsContracting := [1]
  rhsContracting := [0]
  lhsNonContracting := [0]
  rhsNonContracting := [1]
  lhsBatch := []
  rhsBatch := []
  wf := dot_S64x16_S16x64_S64x64_1_0_0_1_n_n_wf

class Facts : Prop extends Facts₀ where

variable [Facts]
-- ==== Proof.Slab.lean ====
/-
  One pass of the kernel's loop over the K axis as ONE pure function: from the 64×64 weight matrix `w` and one
  [64, 64] slab `xk` of the input block (rows r, fields i) to the slab of the result,

    slab w xk (r, i) = (∑ j, s j · e j) / (∑ j, e j),   s j = xk (r, i) · xk (r, j),   e j = exp (s j · w (i, j) − max_j' …).

  The body is unrolled sixteen times and the printed text is cut by position, so the sixteen stores into the
  scratch buffer are spelt through payload definitions cut in five different ways; each of them is this one function
  of the weight matrix and of the slab the pass loaded, cast to the [1, 64, 64] rectangle it is stored through.
-/
import proofs.«117543_j31997506355237_2_alg».proof.Proof.Gen.KernelIdeal.Skeleton

noncomputable section

namespace Cert.Attn.K

open Idealize.ShloMosaic Cert.KernelIdeal Cert.KernelIdeal.Gen

variable {F : FTy → Type} [FloatOps F]

/-- The outer product of the slab's rows with themselves: `outer xk (r, i, j) = xk (r, i) · xk (r, j)`. -/
def outer (xk : FVec F S64x64 .f32) : FVec F S64x64x64 .f32 :=
  mulf (broadcastTo S64x64x64 (shapeCast S64x64x1 xk shapeCasts_S64x64_S64x64x1) broadcasts_S64x64x1_S64x64x64)
    (broadcastTo S64x64x64 (shapeCast S64x1x64 xk shapeCasts_S64x64_S64x1x64) broadcasts_S64x1x64_S64x64x64)

/-- The weighted scores: the outer product times the weight matrix at the two fields. -/
def weighted (w xk : FVec F S64x64 .f32) : FVec F S64x64x64 .f32 :=
  mulf (outer xk) (broadcastTo S64x64x64 (shapeCast S1x64x64 w shapeCasts_S64x64_S1x64x64) broadcasts_S1x64x64_S64x64x64)

/-- Their maximum along the last field axis, from −∞. -/
def rowmax (w xk : FVec F S64x64 .f32) : FVec F S64x64 .f32 :=
  multiReduction .maximumf [2] S64x64 (weighted w xk) 0xFF800000#32 reduces_S64x64x64_S64x64 (.inl rfl) rfl

/-- The exponentials of the weighted scores shifted by that maximum. -/
def expo (w xk : FVec F S64x64 .f32) : FVec F S64x64x64 .f32 :=
  exp (subf (weighted w xk) (broadcastTo S64x64x64 (shapeCast S64x64x1 (rowmax w xk) shapeCasts_S64x64_S64x64x1) broadcasts_S64x64x1_S64x64x64))

/-- One pass: the sum over the last field axis of the outer product times the exponentials, divided by the sum of the
    exponentials. -/
def slab (w : FVec F S64x64 .f32) (xk : FVec F S64x64 .f32) : FVec F S64x64 .f32 :=
  shapeCast S64x64
    (divf
      (shapeCast S64x64x1 (multiReduction .add [2] S64x64 (mulf (outer xk) (expo w xk)) 0x00000000#32 reduces_S64x64x64_S64x64 (.inl rfl) rfl) shapeCasts_S64x64_S64x64x1)
      (shapeCast S64x64x1 (multiReduction .add [2] S64x64 (expo w xk) 0x00000000#32 reduces_S64x64x64_S64x64 (.inl rfl) rfl) shapeCasts_S64x64_S64x64x1))
    shapeCasts_S64x64x1_S64x64

/-- What a pass stores: its slab of the result, as the [1, 64, 64] rectangle of the scratch buffer. -/
def stored (w : FVec F S64x64 .f32) (v : Vec F S1x64x64 .f32) : FVec F S1x64x64 .f32 :=
  shapeCast S1x64x64 (slab w (shapeCast S64x64 v shapeCasts_S1x64x64_S64x64)) shapeCasts_S64x64_S1x64x64

/-- Pass 0's store is the pass's function of the weights and of the slab it loaded. -/
theorem pass0_eq (v0 : Vec F S64x64 .f32) (v : Vec F S1x64x64 .f32) :
    k0_pay2 v0 v = stored (k0_pay1 v0) v := rfl

/-- Pass 1's store is the pass's function of the weights and of the slab it loaded. -/
theorem pass1_eq (v0 : Vec F S64x64 .f32) (v : Vec F S1x64x64 .f32) :
    k0_pay5 (k0_pay3 v) (k0_pay4 v0 v) = stored (k0_pay1 v0) v := rfl

/-- Pass 2's store is the pass's function of the weights and of the slab it loaded. -/
theorem pass2_eq (w : FVec F S64x64 .f32) (v : Vec F S1x64x64 .f32) :
    k0_pay6 w v = stored (w) v := rfl

/-- Pass 3's store is the pass's function of the weights and of the slab it loaded. -/
theorem pass3_eq (w : FVec F S64x64 .f32) (v : Vec F S1x64x64 .f32) :
    k0_pay9 w (k0_pay7 v) (k0_pay8 v) = stored (w) v := rfl

/-- Pass 4's store is the pass's function of the weights and of the slab it loaded. -/
theorem pass4_eq (w : FVec F S64x64 .f32) (v : Vec F S1x64x64 .f32) :
    k0_pay11 (k0_pay10 w v) = stored (w) v := rfl

/-- Pass 5's store is the pass's function of the weights and of the slab it loaded. -/
theorem pass5_eq (w : FVec F S64x64 .f32) (v : Vec F S1x64x64 .f32) :
    k0_pay12 w v = stored (w) v := rfl

/-- Pass 6's store is the pass's function of the weights and of the slab it loaded. -/
theorem pass6_eq (w : FVec F S64x64 .f32) (v : Vec F S1x64x64 .f32) :
    k0_pay15 (k0_pay13 v) (k0_pay14 w v) = stored (w) v := rfl

/-- Pass 7's store is the pass's function of the weights and of the slab it loaded. -/
theorem pass7_eq (w : FVec F S64x64 .f32) (v : Vec F S1x64x64 .f32) :
    k0_pay16 w v = stored (w) v := rfl

/-- Pass 8's store is the pass's function of the weights and of the slab it loaded. -/
theorem pass8_eq (w : FVec F S64x64 .f32) (v : Vec F S1x64x64 .f32) :
    k0_pay19 w (k0_pay17 v) (k0_pay18 v) = stored (w) v := rfl

/-- Pass 9's store is the pass's function of the weights and of the slab it loaded. -/
theorem pass9_eq (w : FVec F S64x64 .f32) (v : Vec F S1x64x64 .f32) :
    k0_pay21 (k0_pay20 w v) = stored (w) v := rfl

/-- Pass 10's store is the pass's function of the weights and of the slab it loaded. -/
theorem pass10_eq (w : FVec F S64x64 .f32) (v : Vec F S1x64x64 .f32) :
    k0_pay22 w v = stored (w) v := rfl

/-- Pass 11's store is the pass's function of the weights and of the slab it loaded. -/
theorem pass11_eq (w : FVec F S64x64 .f32) (v : Vec F S1x64x64 .f32) :
    k0_pay25 (k0_pay23 v) (k0_pay24 w v) = stored (w) v := rfl

/-- Pass 12's store is the pass's function of the weights and of the slab it loaded. -/
theorem pass12_eq (w : FVec F S64x64 .f32) (v : Vec F S1x64x64 .f32) :
    k0_pay26 w v = stored (w) v := rfl

/-- Pass 13's store is the pass's function of the weights and of the slab it loaded. -/
theorem pass13_eq (w : FVec F S64x64 .f32) (v : Vec F S1x64x64 .f32) :
    k0_pay29 w (k0_pay27 v) (k0_pay28 v) = stored (w) v := rfl

/-- Pass 14's store is the pass's function of the weights and of the slab it loaded. -/
theorem pass14_eq (w : FVec F S64x64 .f32) (v : Vec F S1x64x64 .f32) :
    k0_pay31 (k0_pay30 w v) = stored (w) v := rfl

/-- Pass 15's store is the pass's function of the weights and of the slab it loaded. -/
theorem pass15_eq (w : FVec F S64x64 .f32) (v : Vec F S1x64x64 .f32) :
    k0_pay32 w v = stored (w) v := rfl

end Cert.Attn.K

end
-- ==== Proof.Block.lean ====
/-
  What the kernel's body leaves in its output block. The body makes sixteen passes, pass k storing its [64, 64] slab
  of the result at rows k of the [16, 64, 64] scratch buffer, then copies the whole scratch buffer to the output block.
  So the block is, at (k, r, i), pass k's function of the weight matrix and of slab k of the input block, at (r, i):
  the copy reads back, at each index, the one store whose rectangle holds it.
-/
import proofs.«117543_j31997506355237_2_alg».proof.Proof.Slab
import proofs.«117543_j31997506355237_2_alg».proof.Proof.Gen.KernelIdeal.Frame
import Idealize.ShloMosaic.Lib.Pipeline.Value
import Idealize.ShloMosaic.Lib.ValueLayout
import Idealize.ShloMosaic.Lib.Tactic

set_option maxRecDepth 16384

noncomputable section

namespace Cert.Attn.K

open Idealize.ShloMosaic Idealize.ShloMosaic.TcCoe Idealize.ShloMosaic.Tactic Idealize.SL.Sem Idealize.ShloMosaic.ValueIdx
open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- Slab k of a [16, 64, 64] block. -/
def slabOf (X : Vec F S16x64x64 .f32) (k : Fin 16) : FVec F S64x64 .f32 := fun q => X (ix3 k (q 0) (q 1))

/-- The block the body leaves: at (k, r, i) the pass's function of the weights and of slab k, at (r, i). -/
def blockOf (w : FVec F S64x64 .f32) (X : Vec F S16x64x64 .f32) : Vec F S16x64x64 .f32 :=
  fun y => slab w (slabOf X (y 0)) (ix2 (y 1) (y 2))

/-- The slab a pass loads — rows k of the block through a [1, 64, 64] rectangle, its unit axis dropped — is slab k. -/
theorem loaded_slab (X : Vec F S16x64x64 .f32) (k : Fin 16)
    (inb : ∀ a, (![k.val, 0, 0] : Fin 3 → Nat) a + S1x64x64.size a ≤ S16x64x64.size a) :
    shapeCast S64x64 (View.ld X (Rect.unit (s := S16x64x64) ![k.val, 0, 0] S1x64x64.size inb)) shapeCasts_S1x64x64_S64x64 = slabOf X k := by
  funext q
  obtain ⟨a, b, rfl⟩ : ∃ (a b : Fin 64), q = ix2 a b := ⟨q 0, q 1, eq_ix2 q⟩
  refine (shapeCast_1ab_ab_apply _ _ a b).trans ?_
  show X _ = X _
  refine congrArg X (funext fun ax => Fin.ext ?_)
  match ax with
  | ⟨0, _⟩ => show k.val + 1 * 0 = k.val; omega
  | ⟨1, _⟩ => show 0 + 1 * a.val = a.val; omega
  | ⟨2, _⟩ => show 0 + 1 * b.val = b.val; omega

/-- Pass k's store, at an index of its rectangle, is the block's function at that index of the block. -/
theorem piece_eq (w : FVec F S64x64 .f32) (X : Vec F S16x64x64 .f32) (k : Fin 16)
    (inb : ∀ a, (![k.val, 0, 0] : Fin 3 → Nat) a + S1x64x64.size a ≤ S16x64x64.size a)
    (x : (Rect.unit (s := S16x64x64) ![k.val, 0, 0] S1x64x64.size inb).shape.Idx) :
    stored w (View.ld X (Rect.unit (s := S16x64x64) ![k.val, 0, 0] S1x64x64.size inb)) x
      = blockOf w X ((Rect.unit (s := S16x64x64) ![k.val, 0, 0] S1x64x64.size inb).emb x) := by
  obtain ⟨u, p, q, rfl⟩ : ∃ (u : Fin 1) (p q : Fin 64), x = ix3 u p q := ⟨x 0, x 1, x 2, eq_ix3 x⟩
  have hu : u.val = 0 := by omega
  have e0 : (Rect.unit (s := S16x64x64) ![k.val, 0, 0] S1x64x64.size inb).emb (ix3 u p q) = ix3 k p q :=
    funext fun ax => Fin.ext (by
      match ax with
      | ⟨0, _⟩ => show k.val + 1 * u.val = k.val; omega
      | ⟨1, _⟩ => show 0 + 1 * p.val = p.val; omega
      | ⟨2, _⟩ => show 0 + 1 * q.val = q.val; omega)
  rw [e0]
  unfold stored
  refine (shapeCast_ab_1ab_apply _ _ u p q).trans ?_
  rw [loaded_slab X k inb]
  rfl

/-- The copy of the scratch buffer after the sixteen stores reads the block's function. -/
theorem scratch_read (v : View sig .tc .vmem S16x64x64 .f32) (w : FVec F S64x64 .f32) (X : Vec F S16x64x64 .f32) :
    v.readCov (Val := Elt F)
      [⟨Rect.unit (s := S16x64x64) ![15, 0, 0] S1x64x64.size inb_S16x64x64_S1x64x64_15_0_0, stored w (View.ld X (Rect.unit (s := S16x64x64) ![15, 0, 0] S1x64x64.size inb_S16x64x64_S1x64x64_15_0_0))⟩,
      ⟨Rect.unit (s := S16x64x64) ![14, 0, 0] S1x64x64.size inb_S16x64x64_S1x64x64_14_0_0, stored w (View.ld X (Rect.unit (s := S16x64x64) ![14, 0, 0] S1x64x64.size inb_S16x64x64_S1x64x64_14_0_0))⟩,
      ⟨Rect.unit (s := S16x64x64) ![13, 0, 0] S1x64x64.size inb_S16x64x64_S1x64x64_13_0_0, stored w (View.ld X (Rect.unit (s := S16x64x64) ![13, 0, 0] S1x64x64.size inb_S16x64x64_S1x64x64_13_0_0))⟩,
      ⟨Rect.unit (s := S16x64x64) ![12, 0, 0] S1x64x64.size inb_S16x64x64_S1x64x64_12_0_0, stored w (View.ld X (Rect.unit (s := S16x64x64) ![12, 0, 0] S1x64x64.size inb_S16x64x64_S1x64x64_12_0_0))⟩,
      ⟨Rect.unit (s := S16x64x64) ![11, 0, 0] S1x64x64.size inb_S16x64x64_S1x64x64_11_0_0, stored w (View.ld X (Rect.unit (s := S16x64x64) ![11, 0, 0] S1x64x64.size inb_S16x64x64_S1x64x64_11_0_0))⟩,
      ⟨Rect.unit (s := S16x64x64) ![10, 0, 0] S1x64x64.size inb_S16x64x64_S1x64x64_10_0_0, stored w (View.ld X (Rect.unit (s := S16x64x64) ![10, 0, 0] S1x64x64.size inb_S16x64x64_S1x64x64_10_0_0))⟩,
      ⟨Rect.unit (s := S16x64x64) ![9, 0, 0] S1x64x64.size inb_S16x64x64_S1x64x64_9_0_0, stored w (View.ld X (Rect.unit (s := S16x64x64) ![9, 0, 0] S1x64x64.size inb_S16x64x64_S1x64x64_9_0_0))⟩,
      ⟨Rect.unit (s := S16x64x64) ![8, 0, 0] S1x64x64.size inb_S16x64x64_S1x64x64_8_0_0, stored w (View.ld X (Rect.unit (s := S16x64x64) ![8, 0, 0] S1x64x64.size inb_S16x64x64_S1x64x64_8_0_0))⟩,
      ⟨Rect.unit (s := S16x64x64) ![7, 0, 0] S1x64x64.size inb_S16x64x64_S1x64x64_7_0_0, stored w (View.ld X (Rect.unit (s := S16x64x64) ![7, 0, 0] S1x64x64.size inb_S16x64x64_S1x64x64_7_0_0))⟩,
      ⟨Rect.unit (s := S16x64x64) ![6, 0, 0] S1x64x64.size inb_S16x64x64_S1x64x64_6_0_0, stored w (View.ld X (Rect.unit (s := S16x64x64) ![6, 0, 0] S1x64x64.size inb_S16x64x64_S1x64x64_6_0_0))⟩,
      ⟨Rect.unit (s := S16x64x64) ![5, 0, 0] S1x64x64.size inb_S16x64x64_S1x64x64_5_0_0, stored w (View.ld X (Rect.unit (s := S16x64x64) ![5, 0, 0] S1x64x64.size inb_S16x64x64_S1x64x64_5_0_0))⟩,
      ⟨Rect.unit (s := S16x64x64) ![4, 0, 0] S1x64x64.size inb_S16x64x64_S1x64x64_4_0_0, stored w (View.ld X (Rect.unit (s := S16x64x64) ![4, 0, 0] S1x64x64.size inb_S16x64x64_S1x64x64_4_0_0))⟩,
      ⟨Rect.unit (s := S16x64x64) ![3, 0, 0] S1x64x64.size inb_S16x64x64_S1x64x64_3_0_0, stored w (View.ld X (Rect.unit (s := S16x64x64) ![3, 0, 0] S1x64x64.size inb_S16x64x64_S1x64x64_3_0_0))⟩,
      ⟨Rect.unit (s := S16x64x64) ![2, 0, 0] S1x64x64.size inb_S16x64x64_S1x64x64_2_0_0, stored w (View.ld X (Rect.unit (s := S16x64x64) ![2, 0, 0] S1x64x64.size inb_S16x64x64_S1x64x64_2_0_0))⟩,
      ⟨Rect.unit (s := S16x64x64) ![1, 0, 0] S1x64x64.size inb_S16x64x64_S1x64x64_1_0_0, stored w (View.ld X (Rect.unit (s := S16x64x64) ![1, 0, 0] S1x64x64.size inb_S16x64x64_S1x64x64_1_0_0))⟩,
      ⟨Rect.unit (s := S16x64x64) ![0, 0, 0] S1x64x64.size inb_S16x64x64_S1x64x64_0_0_0, stored w (View.ld X (Rect.unit (s := S16x64x64) ![0, 0, 0] S1x64x64.size inb_S16x64x64_S1x64x64_0_0_0))⟩]
      (Rect.unit (s := S16x64x64) ![0, 0, 0] S16x64x64.size inb_S16x64x64_S16x64x64_0_0_0).toLoadRect
      = blockOf w X := by
  have hcov : ∀ y : S16x64x64.Idx, ∃ p ∈ ([⟨Rect.unit (s := S16x64x64) ![15, 0, 0] S1x64x64.size inb_S16x64x64_S1x64x64_15_0_0, stored w (View.ld X (Rect.unit (s := S16x64x64) ![15, 0, 0] S1x64x64.size inb_S16x64x64_S1x64x64_15_0_0))⟩,
      ⟨Rect.unit (s := S16x64x64) ![14, 0, 0] S1x64x64.size inb_S16x64x64_S1x64x64_14_0_0, stored w (View.ld X (Rect.unit (s := S16x64x64) ![14, 0, 0] S1x64x64.size inb_S16x64x64_S1x64x64_14_0_0))⟩,
      ⟨Rect.unit (s := S16x64x64) ![13, 0, 0] S1x64x64.size inb_S16x64x64_S1x64x64_13_0_0, stored w (View.ld X (Rect.unit (s := S16x64x64) ![13, 0, 0] S1x64x64.size inb_S16x64x64_S1x64x64_13_0_0))⟩,
      ⟨Rect.unit (s := S16x64x64) ![12, 0, 0] S1x64x64.size inb_S16x64x64_S1x64x64_12_0_0, stored w (View.ld X (Rect.unit (s := S16x64x64) ![12, 0, 0] S1x64x64.size inb_S16x64x64_S1x64x64_12_0_0))⟩,
      ⟨Rect.unit (s := S16x64x64) ![11, 0, 0] S1x64x64.size inb_S16x64x64_S1x64x64_11_0_0, stored w (View.ld X (Rect.unit (s := S16x64x64) ![11, 0, 0] S1x64x64.size inb_S16x64x64_S1x64x64_11_0_0))⟩,
      ⟨Rect.unit (s := S16x64x64) ![10, 0, 0] S1x64x64.size inb_S16x64x64_S1x64x64_10_0_0, stored w (View.ld X (Rect.unit (s := S16x64x64) ![10, 0, 0] S1x64x64.size inb_S16x64x64_S1x64x64_10_0_0))⟩,
      ⟨Rect.unit (s := S16x64x64) ![9, 0, 0] S1x64x64.size inb_S16x64x64_S1x64x64_9_0_0, stored w (View.ld X (Rect.unit (s := S16x64x64) ![9, 0, 0] S1x64x64.size inb_S16x64x64_S1x64x64_9_0_0))⟩,
      ⟨Rect.unit (s := S16x64x64) ![8, 0, 0] S1x64x64.size inb_S16x64x64_S1x64x64_8_0_0, stored w (View.ld X (Rect.unit (s := S16x64x64) ![8, 0, 0] S1x64x64.size inb_S16x64x64_S1x64x64_8_0_0))⟩,
      ⟨Rect.unit (s := S16x64x64) ![7, 0, 0] S1x64x64.size inb_S16x64x64_S1x64x64_7_0_0, stored w (View.ld X (Rect.unit (s := S16x64x64) ![7, 0, 0] S1x64x64.size inb_S16x64x64_S1x64x64_7_0_0))⟩,
      ⟨Rect.unit (s := S16x64x64) ![6, 0, 0] S1x64x64.size inb_S16x64x64_S1x64x64_6_0_0, stored w (View.ld X (Rect.unit (s := S16x64x64) ![6, 0, 0] S1x64x64.size inb_S16x64x64_S1x64x64_6_0_0))⟩,
      ⟨Rect.unit (s := S16x64x64) ![5, 0, 0] S1x64x64.size inb_S16x64x64_S1x64x64_5_0_0, stored w (View.ld X (Rect.unit (s := S16x64x64) ![5, 0, 0] S1x64x64.size inb_S16x64x64_S1x64x64_5_0_0))⟩,
      ⟨Rect.unit (s := S16x64x64) ![4, 0, 0] S1x64x64.size inb_S16x64x64_S1x64x64_4_0_0, stored w (View.ld X (Rect.unit (s := S16x64x64) ![4, 0, 0] S1x64x64.size inb_S16x64x64_S1x64x64_4_0_0))⟩,
      ⟨Rect.unit (s := S16x64x64) ![3, 0, 0] S1x64x64.size inb_S16x64x64_S1x64x64_3_0_0, stored w (View.ld X (Rect.unit (s := S16x64x64) ![3, 0, 0] S1x64x64.size inb_S16x64x64_S1x64x64_3_0_0))⟩,
      ⟨Rect.unit (s := S16x64x64) ![2, 0, 0] S1x64x64.size inb_S16x64x64_S1x64x64_2_0_0, stored w (View.ld X (Rect.unit (s := S16x64x64) ![2, 0, 0] S1x64x64.size inb_S16x64x64_S1x64x64_2_0_0))⟩,
      ⟨Rect.unit (s := S16x64x64) ![1, 0, 0] S1x64x64.size inb_S16x64x64_S1x64x64_1_0_0, stored w (View.ld X (Rect.unit (s := S16x64x64) ![1, 0, 0] S1x64x64.size inb_S16x64x64_S1x64x64_1_0_0))⟩,
      ⟨Rect.unit (s := S16x64x64) ![0, 0, 0] S1x64x64.size inb_S16x64x64_S1x64x64_0_0_0, stored w (View.ld X (Rect.unit (s := S16x64x64) ![0, 0, 0] S1x64x64.size inb_S16x64x64_S1x64x64_0_0_0))⟩] : List (View.Piece (Elt F) S16x64x64 .f32)), y ∈ p.1.set :=
    fun y => View.cover_of_tiledL (s := S16x64x64) _ ![1, 64, 64] (by sl_kernel_rfl) y
  rw [View.readCov_eq_canon_ld _ _ _ hcov, View.ld_unit_zero (S := S16x64x64) hz3]
  funext y
  refine View.canon_apply_of_pieces (blockOf w X) _ ?_ y (hcov y)
  intro p hp
  simp only [List.mem_cons, List.not_mem_nil, or_false] at hp
  rcases hp with rfl | rfl | rfl | rfl | rfl | rfl | rfl | rfl | rfl | rfl | rfl | rfl | rfl | rfl | rfl | rfl
  · exact piece_eq w X 15 _
  · exact piece_eq w X 14 _
  · exact piece_eq w X 13 _
  · exact piece_eq w X 12 _
  · exact piece_eq w X 11 _
  · exact piece_eq w X 10 _
  · exact piece_eq w X 9 _
  · exact piece_eq w X 8 _
  · exact piece_eq w X 7 _
  · exact piece_eq w X 6 _
  · exact piece_eq w X 5 _
  · exact piece_eq w X 4 _
  · exact piece_eq w X 3 _
  · exact piece_eq w X 2 _
  · exact piece_eq w X 1 _
  · exact piece_eq w X 0 _

/-- THE BLOCK: what the body leaves in the output's staging buffer, on any staging memrefs, from the input block `x0`
    and the weight matrix `x1` it finds in the input windows' buffers. -/
theorem block_eq (c : Dev nD) (i : grid0.Coords) (arg1 : Memref sig .tc .vmem S16x64x64 .f32) (harg1 : arg1.IsWhole)
    (arg2 : Memref sig .tc .vmem S64x64 .f32) (harg2 : arg2.IsWhole) (arg3 : Memref sig .tc .vmem S16x64x64 .f32) (harg3 : arg3.IsWhole)
    (arg4 : Memref sig .tc .vmem S16x64x64 .f32) (harg4 : arg4.IsWhole) (x0 : Vec F S16x64x64 .f32) (x1 : Vec F S64x64 .f32) :
    out0_A_2 c i arg1 harg1 arg2 harg2 arg3 harg3 arg4 harg4 x0 x1 = blockOf (k0_pay1 x1) x0 := by
  unfold out0_A_2
  rw [View.read_writes_eq_canon _ _ _ (cover0_A_2 c i arg1 harg1 arg2 harg2 arg3 harg3 arg4 harg4 x0 x1)]
  unfold kernelRun0_A
  dsimp only
  sl_unfold_words
  rw [View.canon_unit_zero (S := S16x64x64) hz3]
  simp only [View.readAt_eq_ld, harg1.read_unread, harg2.read_unread, View.ld_unit_zero (S := S64x64) hz2,
    pass0_eq, pass1_eq, pass2_eq, pass3_eq, pass4_eq, pass5_eq, pass6_eq, pass7_eq, pass8_eq, pass9_eq, pass10_eq, pass11_eq, pass12_eq, pass13_eq, pass14_eq, pass15_eq]
  exact scratch_read arg4.view (k0_pay1 x1) x0

end Cert.Attn.K

end
-- ==== Proof.SoftmaxLaw.lean ====
/-
  One row of the attention: for a row of scores `s j` and weighted scores `sw j` (j over a finite index set),
  with `M = max_j sw j` (a fold of `max` from −∞) and `e j = exp (sw j − M)`:

    the kernel's form      (∑ j, s j · e j) / (∑ j, e j)                  (normalise after the sum)
    the reference's form    0 + ∑ j, s j · (e j / (0 + ∑ j', e j'))        (a softmax, then the weighted sum)

  On the extended reals the two agree when every `s j` and `sw j` is a real number: then `M` is a real (a maximum
  of finitely many reals, the row being nonempty), every `e j` is a positive real, their sum `l` is a positive real,
  the quotient by `l` is the product with `1 / l`, and the product distributes over the finite sum in ℝ. With an
  infinite entry the law fails (∞ − ∞, 0 · ∞), which is why the claim is stated under finite inputs.
-/
import Idealize.ShloMosaic.PureOps.Ideal
import Idealize.ShloMosaic.PureOps.Ideal.Laws

noncomputable section

namespace Cert.Attn

open Idealize.ShloMosaic

variable {ι : Type} [Fintype ι]

/-- The f32 pattern of −∞ denotes the bottom of the extended reals. -/
theorem ofBits_neg_inf : Ideal.ofBits .f32 0xFF800000#32 = (⊥ : EReal) := by
  simp [Ideal.ofBits, Ideal.ieee]

/-- The row maximum as both programs compute it: the fold of `max` from the pattern of −∞. -/
def rowMax (sw : ι → EReal) : EReal :=
  (Finset.univ : Finset ι).fold max (Ideal.ofBits .f32 0xFF800000#32) sw

/-- The shifted exponentials `exp (sw j − max)`. -/
def expRow (sw : ι → EReal) (j : ι) : EReal := Ideal.exp (sw j - rowMax sw)

/-- The kernel's row: the weighted sum of the shifted exponentials, divided once by their sum. -/
def attnRow (s sw : ι → EReal) : EReal :=
  Ideal.div (∑ j, s j * expRow sw j) (∑ j, expRow sw j)

/-- The reference's row, as its operations spell it: the maximum joined once more with −∞, both sums started at
    the pattern of `0.0`, each exponential divided by the sum before the weighted sum is taken. -/
def attnRowRef (s sw : ι → EReal) : EReal :=
  Ideal.ofBits .f32 0x00000000#32 + ∑ j, s j * Ideal.div
    (Ideal.exp (sw j - max (Ideal.ofBits .f32 0xFF800000#32) (rowMax sw)))
    (Ideal.ofBits .f32 0x00000000#32 + ∑ j', Ideal.exp (sw j' - max (Ideal.ofBits .f32 0xFF800000#32) (rowMax sw)))

/-- A finite sum of real numbers, taken in the extended reals, is the real sum. -/
theorem coe_sum (f : ι → ℝ) : (∑ j, (f j : EReal)) = ((∑ j, f j : ℝ) : EReal) := by
  classical
  refine Finset.induction_on (Finset.univ : Finset ι) (by simp) fun a t ha ih => ?_
  rw [Finset.sum_insert ha, Finset.sum_insert ha, ih, EReal.coe_add]

/-- The maximum of a nonempty finite row of reals is a real. -/
theorem rowMax_real [Nonempty ι] (sw : ι → ℝ) : ∃ r : ℝ, rowMax (fun j => (sw j : EReal)) = (r : EReal) := by
  have hbot : rowMax (fun j => (sw j : EReal)) ≠ ⊥ := by
    obtain ⟨j₀⟩ := ‹Nonempty ι›
    have h : ((sw j₀ : ℝ) : EReal) ≤ rowMax (fun j => (sw j : EReal)) :=
      Finset.le_fold_max (s := Finset.univ) (f := fun j => (sw j : EReal)) _ |>.mpr (Or.inr ⟨j₀, Finset.mem_univ _, le_refl _⟩)
    intro e
    rw [e] at h
    exact absurd (le_bot_iff.mp h) (EReal.coe_ne_bot _)
  have htop : rowMax (fun j => (sw j : EReal)) ≠ ⊤ := by
    have h : rowMax (fun j => (sw j : EReal)) < ⊤ := by
      unfold rowMax
      rw [Finset.fold_max_lt]
      exact ⟨by rw [ofBits_neg_inf]; exact bot_lt_top, fun j _ => EReal.coe_lt_top _⟩
    exact h.ne
  exact ⟨_, (EReal.coe_toReal htop hbot).symm⟩

/-- THE LAW: on rows of real numbers the reference's row is the kernel's. -/
theorem attnRowRef_eq [Nonempty ι] (s sw : ι → EReal) (hs : ∀ j, ∃ r : ℝ, s j = (r : EReal))
    (hsw : ∀ j, ∃ r : ℝ, sw j = (r : EReal)) : attnRowRef s sw = attnRow s sw := by
  choose s' hs' using hs
  choose sw' hsw' using hsw
  obtain rfl : s = fun j => (s' j : EReal) := funext hs'
  obtain rfl : sw = fun j => (sw' j : EReal) := funext hsw'
  obtain ⟨M, hM⟩ := rowMax_real sw'
  have hE : ∀ j, Ideal.exp (((sw' j : ℝ) : EReal) - (M : EReal)) = ((Real.exp (sw' j - M) : ℝ) : EReal) := fun j => by
    rw [← EReal.coe_sub]; rfl
  have hlpos : 0 < ∑ j, Real.exp (sw' j - M) :=
    Finset.sum_pos (fun j _ => Real.exp_pos _) Finset.univ_nonempty
  have hl : (∑ j, Real.exp (sw' j - M)) ≠ 0 := hlpos.ne'
  unfold attnRowRef attnRow expRow
  simp only [hM, ofBits_neg_inf, bot_le, max_eq_right, Ideal.ofBits_zero_f32, zero_add, hE, coe_sum,
    Ideal.div_coe hl, ← EReal.coe_mul]
  congr 1
  rw [Finset.sum_mul]
  exact Finset.sum_congr rfl fun j _ => by ring

end Cert.Attn

end
-- ==== Proof.LibOuterLayouts.lean ====
/-
  Unit axes added by a shape cast and filled by a broadcast, read at an index — the layouts by which an outer product
  u ⊗ v ⊗ w is formed from vectors: a vector as a column [a] → [a, 1] and as a [1, 1, a] slab, a matrix with a
  trailing unit axis [a, b] → [a, b, 1], a column broadcast along rows [a, 1] → [a, b], a trailing unit axis
  broadcast [a, b, 1] → [a, b, c], and a [1, 1, c] slab broadcast to [a, b, c]. Generic in the extents.
-/
import Idealize.ShloMosaic.Lib.Pipeline.Value
import Idealize.ShloMosaic.Lib.ValueIdx
import Idealize.ShloMosaic.Lib.ValueLayout

namespace Cert.Lib

open Idealize.ShloMosaic Idealize.ShloMosaic.ValueIdx

variable {α : Type}

/-- An `[a]` vector cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` vector cast to `[1, 1, a]` reads, at `(u, v, i)`, the vector at `i`. -/
theorem shapeCast_a_11a_apply {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    simp only [hu, hv, Nat.zero_mul, Nat.zero_add, Nat.mul_one, Nat.add_zero])

/-- An `[a, b]` matrix cast to `[a, b, 1]` reads, at `(i, j, u)`, the matrix at `(i, j)`. -/
theorem shapeCast_ab_ab1_apply {a b : ℕ} (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A column `[a, 1]` broadcast to `[a, b]` reads, at `(i, j)`, the column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, 1]` array broadcast to `[a, b, c]` reads, at `(i, j, k)`, the array at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, 1, c]` slab broadcast to `[a, b, c]` reads, at `(i, j, k)`, the slab at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.Lib
-- ==== Proof.LibMiddleLayouts.lean ====
/-
  A unit axis in the MIDDLE or at the FRONT, added by a cast and filled by a broadcast, and a trailing unit axis
  dropped — read at an index, generic in the extents: a matrix as [a, 1, b] (a row vector per leading index), that
  array and a [1, b, c] slab broadcast to [a, b, c], and [a, b, 1] cast back to [a, b]. With the trailing-axis forms
  ([a, b] → [a, b, 1] → [a, b, c]) these are the layouts of an outer product of a matrix's rows with themselves.
-/
import Idealize.ShloMosaic.Lib.Pipeline.Value
import Idealize.ShloMosaic.Lib.ValueIdx
import Idealize.ShloMosaic.Lib.ValueLayout

namespace Cert.Lib

open Idealize.ShloMosaic Idealize.ShloMosaic.ValueIdx

variable {α : Type}

/-- An `[a, b]` matrix cast to `[a, 1, b]` reads, at `(i, u, j)`, the matrix at `(i, j)`. -/
theorem shapeCast_ab_a1b_apply {a b : ℕ} (x : (⟨2, ![a, b]⟩ : Shape).Idx → α) (h : (⟨2, ![a, b]⟩ : Shape).ShapeCasts ⟨3, ![a, 1, b]⟩)
    (i : Fin a) (u : Fin 1) (j : Fin b) : shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array cast to `[a, b]` reads, at `(i, j)`, the array at `(i, j, 0)`. -/
theorem shapeCast_ab1_ab_apply {a b : ℕ} (x : (⟨3, ![a, b, 1]⟩ : Shape).Idx → α) (h : (⟨3, ![a, b, 1]⟩ : Shape).ShapeCasts ⟨2, ![a, b]⟩)
    (i : Fin a) (j : Fin b) : shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, 1, c]` array broadcast to `[a, b, c]` reads, at `(i, j, k)`, the array at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` slab broadcast to `[a, b, c]` reads, at `(i, j, k)`, the slab at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Cert.Lib
-- ==== Proof.SlabAt.lean ====
/-
  One pass of the kernel's loop read at an index, on the extended reals: at row r and field i the pass's slab is the
  attention row `attnRow s sw` of the scores `s j = xk (r, i) · xk (r, j)` and the weighted scores
  `sw j = s j · w (i, j)` — the lane reductions read as a sum and as a fold of `max` over the last field axis, the
  unit axes of the outer product read away.
-/
import proofs.«117543_j31997506355237_2_alg».proof.Proof.Slab
import proofs.«117543_j31997506355237_2_alg».proof.Proof.SoftmaxLaw
import proofs.«117543_j31997506355237_2_alg».proof.Proof.LibOuterLayouts
import proofs.«117543_j31997506355237_2_alg».proof.Proof.LibMiddleLayouts
import Idealize.ShloMosaic.PureOps.Ideal.Laws
import Idealize.ShloMosaic.Lib.ValueIdx

noncomputable section

namespace Cert.Attn.K

open Idealize.ShloMosaic Idealize.ShloMosaic.ValueIdx Cert.KernelIdeal Cert.KernelIdeal.Gen Cert.Lib

/-- The index the reduction over the last axis inserts its coordinate into. -/
theorem lift_eq (r i j : Fin 64) : reduces_S64x64x64_S64x64.lift (ix2 r i) j = ix3 r i j :=
  funext fun a => Fin.ext (by match a with | ⟨0, _⟩ => rfl | ⟨1, _⟩ => rfl | ⟨2, _⟩ => rfl)

/-- A sum over the last axis of a [64, 64, 64] array, at (r, i). -/
theorem sum_last (src : FVec Ideal S64x64x64 .f32) (r i : Fin 64) :
    multiReduction .add [2] S64x64 src 0x00000000#32 reduces_S64x64x64_S64x64 (.inl rfl) rfl (ix2 r i)
      = ∑ j : Fin 64, src (ix3 r i j) := by
  refine (Ideal.multiReduction_add_single src 0x00000000#32 reduces_S64x64x64_S64x64 (.inl rfl) rfl (ix2 r i)).trans ?_
  exact Finset.sum_congr rfl fun j _ => congrArg src (lift_eq r i j)

/-- A maximum over the last axis of a [64, 64, 64] array, at (r, i): the fold from −∞. -/
theorem max_last (src : FVec Ideal S64x64x64 .f32) (r i : Fin 64) :
    multiReduction .maximumf [2] S64x64 src 0xFF800000#32 reduces_S64x64x64_S64x64 (.inl rfl) rfl (ix2 r i)
      = Cert.Attn.rowMax (fun j : Fin 64 => src (ix3 r i j)) := by
  refine (Ideal.multiReduction_maximumf_single src 0xFF800000#32 reduces_S64x64x64_S64x64 (.inl rfl) rfl (ix2 r i)).trans ?_
  unfold Cert.Attn.rowMax
  exact congrArg (fun f => (Finset.univ : Finset (Fin 64)).fold max (Ideal.ofBits .f32 0xFF800000#32) f)
    (funext fun j => congrArg src (lift_eq r i j))

theorem outer_apply (xk : FVec Ideal S64x64 .f32) (r i j : Fin 64) :
    outer (F := Ideal) xk (ix3 r i j) = xk (ix2 r i) * xk (ix2 r j) := by
  unfold outer
  rw [mulf_apply, broadcastTo_ab1_abc_apply, shapeCast_ab_ab1_apply, broadcastTo_a1c_abc_apply, shapeCast_ab_a1b_apply]

theorem weighted_apply (w xk : FVec Ideal S64x64 .f32) (r i j : Fin 64) :
    weighted (F := Ideal) w xk (ix3 r i j) = xk (ix2 r i) * xk (ix2 r j) * w (ix2 i j) := by
  unfold weighted
  rw [mulf_apply, outer_apply, broadcastTo_1bc_abc_apply, shapeCast_ab_1ab_apply]

theorem rowmax_apply (w xk : FVec Ideal S64x64 .f32) (r i : Fin 64) :
    rowmax (F := Ideal) w xk (ix2 r i)
      = Cert.Attn.rowMax (fun j : Fin 64 => xk (ix2 r i) * xk (ix2 r j) * w (ix2 i j)) := by
  unfold rowmax
  rw [max_last]
  exact congrArg Cert.Attn.rowMax (funext fun j => weighted_apply w xk r i j)

theorem expo_apply (w xk : FVec Ideal S64x64 .f32) (r i j : Fin 64) :
    expo (F := Ideal) w xk (ix3 r i j)
      = Cert.Attn.expRow (fun j : Fin 64 => xk (ix2 r i) * xk (ix2 r j) * w (ix2 i j)) j := by
  unfold expo
  show Ideal.exp (weighted (F := Ideal) w xk (ix3 r i j)
      - broadcastTo S64x64x64 (shapeCast S64x64x1 (rowmax (F := Ideal) w xk) shapeCasts_S64x64_S64x64x1) broadcasts_S64x64x1_S64x64x64 (ix3 r i j)) = _
  rw [weighted_apply, broadcastTo_ab1_abc_apply, shapeCast_ab_ab1_apply, rowmax_apply]
  rfl

/-- The pass at (r, i) is the attention row of the slab's row r at field i. -/
theorem slab_apply (w xk : FVec Ideal S64x64 .f32) (r i : Fin 64) :
    slab (F := Ideal) w xk (ix2 r i)
      = Cert.Attn.attnRow (fun j : Fin 64 => xk (ix2 r i) * xk (ix2 r j))
          (fun j : Fin 64 => xk (ix2 r i) * xk (ix2 r j) * w (ix2 i j)) := by
  unfold slab
  rw [shapeCast_ab1_ab_apply, divf_apply, shapeCast_ab_ab1_apply, shapeCast_ab_ab1_apply, sum_last, sum_last]
  unfold Cert.Attn.attnRow
  refine congrArg₂ Ideal.div (Finset.sum_congr rfl fun j _ => ?_) (Finset.sum_congr rfl fun j _ => expo_apply w xk r i j)
  rw [mulf_apply, outer_apply, expo_apply]

end Cert.Attn.K

end
-- ==== Proof.AttnSpec.lean ====
/-
  The result both programs compute, as ONE function of the input array `x` [1024, 64, 16] (batch b, field i, latent k)
  and of the 64×64 field-pair weight matrix `W`: at (b, i, k) the attention row of the scores
  `s j = x (b, i, k) · x (b, j, k)` and the weighted scores `sw j = s j · W (i, j)`, j over the 64 fields.
-/
import proofs.«117543_j31997506355237_2_alg».proof.Proof.SoftmaxLaw
import Idealize.ShloMosaic.Lib.ValueIdx

noncomputable section

namespace Cert.Attn

open Idealize.ShloMosaic Idealize.ShloMosaic.ValueIdx

/-- The pairwise-attention result at (b, i, k), in the kernel's form (normalise after the sum). -/
def result (x : (⟨3, ![1024, 64, 16]⟩ : Shape).Idx → EReal) (W : (⟨2, ![64, 64]⟩ : Shape).Idx → EReal) :
    (⟨3, ![1024, 64, 16]⟩ : Shape).Idx → EReal :=
  fun p => attnRow (fun j : Fin 64 => x (ix3 (p 0) (p 1) (p 2)) * x (ix3 (p 0) j (p 2)))
    (fun j : Fin 64 => x (ix3 (p 0) (p 1) (p 2)) * x (ix3 (p 0) j (p 2)) * W (ix2 (p 1) j))

theorem result_apply (x : (⟨3, ![1024, 64, 16]⟩ : Shape).Idx → EReal) (W : (⟨2, ![64, 64]⟩ : Shape).Idx → EReal)
    (b : Fin 1024) (i : Fin 64) (k : Fin 16) :
    result x W (ix3 b i k) = attnRow (fun j : Fin 64 => x (ix3 b i k) * x (ix3 b j k))
      (fun j : Fin 64 => x (ix3 b i k) * x (ix3 b j k) * W (ix2 i j)) := rfl

end Cert.Attn

end
-- ==== Proof.KernelValue.lean ====
/-
  The kernel's result array on the extended reals. The host transposes `x` to [16, 1024, 64] (latent, batch, field) and
  forms `W = vk · vkᵀ`; the region's grid cuts the batch axis into sixteen blocks of 64 rows, point t taking rows
  64 t … 64 t + 63 of every latent slab and the whole of `W`; the body leaves in the output block, at (k, r, i), the
  attention row of row 64 t + r of slab k at field i; the blocks tile the [16, 1024, 64] result, and the host transposes it
  back to [1024, 64, 16]. So the result at (b, i, k) is the attention row of `x (b, ·, k)` at field i.
-/
import proofs.«117543_j31997506355237_2_alg».proof.Proof.Block
import proofs.«117543_j31997506355237_2_alg».proof.Proof.SlabAt
import proofs.«117543_j31997506355237_2_alg».proof.Proof.AttnSpec
import proofs.«117543_j31997506355237_2_alg».proof.Proof.Gen.KernelIdeal.Frame
import Idealize.ShloMosaic.Lib.Pipeline.Value
import Idealize.ShloMosaic.Lib.StableHlo.Run
import Idealize.ShloMosaic.Lib.ValueLayout
import Idealize.ShloMosaic.Lib.Tactic

set_option maxRecDepth 16384

noncomputable section

namespace Cert.Attn.K

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The body's block at (k, r, i): the attention row of row r of slab k of the input block at field i, weighted by the
    matrix the second window holds. -/
theorem block_apply (x0 : Vec Ideal S16x64x64 .f32) (x1 : Vec Ideal S64x64 .f32) (k : Fin 16) (r i : Fin 64) :
    blockOf (F := Ideal) (k0_pay1 x1) x0 (ix3 k r i)
      = Cert.Attn.attnRow (fun j : Fin 64 => x0 (ix3 k r i) * x0 (ix3 k r j))
          (fun j : Fin 64 => x0 (ix3 k r i) * x0 (ix3 k r j) * x1 (ix2 i j)) := by
  refine (slab_apply (k0_pay1 x1) (slabOf x0 k) r i).trans ?_
  unfold k0_pay1
  simp only [shapeCast_self]
  rfl

/-- What the result array [16, 1024, 64] holds after the region, as a function of the transposed input `xt` and the
    weight matrix `wm`. -/
def arrayOf (xt : S16x1024x64.Idx → EReal) (wm : S64x64.Idx → EReal) : S16x1024x64.Idx → EReal :=
  fun p => Cert.Attn.attnRow (fun j : Fin 64 => xt (ix3 (p 0) (p 1) (p 2)) * xt (ix3 (p 0) (p 1) j))
    (fun j : Fin 64 => xt (ix3 (p 0) (p 1) (p 2)) * xt (ix3 (p 0) (p 1) j) * wm (ix2 (p 2) j))

theorem arrayOf_apply (xt : S16x1024x64.Idx → EReal) (wm : S64x64.Idx → EReal) (k : Fin 16) (b : Fin 1024) (i : Fin 64) :
    arrayOf xt wm (ix3 k b i) = Cert.Attn.attnRow (fun j : Fin 64 => xt (ix3 k b i) * xt (ix3 k b j))
      (fun j : Fin 64 => xt (ix3 k b i) * xt (ix3 k b j) * wm (ix2 i j)) := rfl

/-- The printed index maps over the grid: the input and the output move along the batch axis with the point, the weight
    matrix stays. -/
theorem index_facts : ∀ t : Fin cfg0.N, win0_0.index t (0 : Fin 3) = 0 ∧ win0_0.index t (1 : Fin 3) = t.val
    ∧ win0_0.index t (2 : Fin 3) = 0 ∧ win0_1.index t (0 : Fin 2) = 0 ∧ win0_1.index t (1 : Fin 2) = 0
    ∧ win0_2.index t (0 : Fin 3) = 0 ∧ win0_2.index t (1 : Fin 3) = t.val ∧ win0_2.index t (2 : Fin 3) = 0 :=
  (by decide +kernel : ∀ t : Fin grid0.N, _)

/-- WHAT POINT t WRITES BACK is block t of `arrayOf` of the arrays the region finds. -/
theorem flushed_eq (c : Dev nD) (t : Fin cfg0.N) :
    (dats m 0 c).flushed 2 t
      = ((cfg0.win 2).blk t).view.read (Elt Ideal) (arrayOf (V m c main_v2) (V m c main_v1)) := by
  show (cfg0.win 2).cut (grid0.coords t) ((dats m 0 c).after 2 t) = _
  rw [after0_2]
  unfold outsAt0
  refine (block_eq (F := Ideal) c (grid0.coords t) (ms0_0 t) (hs0_0 t) (ms0_1 t) (hs0_1 t) (ms0_2 t) (hs0_2 t) scM0_0
    (Memref.isWhole_whole _) (iblk m c 0 t) (iblk m c 1 t)).trans ?_
  obtain ⟨e00, e01, e02, e10, e11, e20, e21, e22⟩ := index_facts t
  funext y
  obtain ⟨k, r, i, rfl⟩ : ∃ (k : Fin 16) (r i : Fin 64), y = ix3 k r i := ⟨y 0, y 1, y 2, eq_ix3 y⟩
  refine (block_apply (iblk m c 0 t) (iblk m c 1 t) k r i).trans ?_
  have hrow : t.val * 64 + r.val < 1024 := by have := t.isLt; have h16 : cfg0.N = 16 := N_0; have := r.isLt; omega
  have he : ((cfg0.win 2).blk t).view.emb (ix3 k r i) = ix3 k (⟨t.val * 64 + r.val, hrow⟩ : Fin 1024) i :=
    funext fun a => Fin.ext (by
      match a with
      | ⟨0, _⟩ => show win0_2.index t (0 : Fin 3) * 16 + 1 * k.val = k.val; omega
      | ⟨1, _⟩ => show win0_2.index t (1 : Fin 3) * 64 + 1 * r.val = t.val * 64 + r.val; omega
      | ⟨2, _⟩ => show win0_2.index t (2 : Fin 3) * 64 + 1 * i.val = i.val; omega)
  have hA : ∀ j : Fin 64, iblk m c 0 t (ix3 k r j) = V m c main_v2 (ix3 k (⟨t.val * 64 + r.val, hrow⟩ : Fin 1024) j) := fun j => by
    show V m c main_v2 (((cfg0.win 0).blk t).view.emb (ix3 k r j)) = _
    refine congrArg (V m c main_v2) (funext fun a => Fin.ext ?_)
    match a with
    | ⟨0, _⟩ => show win0_0.index t (0 : Fin 3) * 16 + 1 * k.val = k.val; omega
    | ⟨1, _⟩ => show win0_0.index t (1 : Fin 3) * 64 + 1 * r.val = t.val * 64 + r.val; omega
    | ⟨2, _⟩ => show win0_0.index t (2 : Fin 3) * 64 + 1 * j.val = j.val; omega
  have hB : ∀ j : Fin 64, iblk m c 1 t (ix2 i j) = V m c main_v1 (ix2 i j) := fun j => by
    show V m c main_v1 (((cfg0.win 1).blk t).view.emb (ix2 i j)) = _
    refine congrArg (V m c main_v1) (funext fun a => Fin.ext ?_)
    match a with
    | ⟨0, _⟩ => show win0_1.index t (0 : Fin 2) * 64 + 1 * i.val = i.val; omega
    | ⟨1, _⟩ => show win0_1.index t (1 : Fin 2) * 64 + 1 * j.val = j.val; omega
  show _ = arrayOf (V m c main_v2) (V m c main_v1) (((cfg0.win 2).blk t).view.emb (ix3 k r i))
  rw [he]
  unfold arrayOf
  simp only [hA, hB]

/-- An index of the array is in point t's block iff each coordinate is in the block's range on its axis. -/
theorem mem_blk (t : Fin cfg0.N) (p : S16x1024x64.Idx) :
    p ∈ ((cfg0.win 2).blk t).view.set ↔ ∀ a : Fin 3, win0_2.index t a * S16x64x64.size a ≤ (p a).val
      ∧ (p a).val < win0_2.index t a * S16x64x64.size a + S16x64x64.size a := by
  show p ∈ ((View.whole main_v3).slice (win0_2.rect t)).set ↔ _
  rw [View.set_slice_whole, Rect.mem_set_unit]
  exact Iff.rfl

/-- Every index of the result array is in the block of the point its batch row falls in. -/
theorem covered (p : S16x1024x64.Idx) :
    ∃ t : Fin cfg0.N, (cfg0.win 2).flush t = true ∧ p ∈ ((cfg0.win 2).blk t).view.set := by
  have h0 : (p 0).val < 16 := (p 0).isLt
  have h1 : (p 1).val < 1024 := (p 1).isLt
  have h2 : (p 2).val < 64 := (p 2).isLt
  have h16 : cfg0.N = 16 := N_0
  refine ⟨⟨(p 1).val / 64, by omega⟩, flush0_2 _, ?_⟩
  rw [mem_blk]
  obtain ⟨-, -, -, -, -, e20, e21, e22⟩ := index_facts ⟨(p 1).val / 64, by omega⟩
  intro a
  match a with
  | ⟨0, _⟩ => show win0_2.index _ (0 : Fin 3) * 16 ≤ (p 0).val ∧ (p 0).val < win0_2.index _ (0 : Fin 3) * 16 + 16; rw [e20]; omega
  | ⟨1, _⟩ => show win0_2.index _ (1 : Fin 3) * 64 ≤ (p 1).val ∧ (p 1).val < win0_2.index _ (1 : Fin 3) * 64 + 64; rw [e21]; dsimp only; omega
  | ⟨2, _⟩ => show win0_2.index _ (2 : Fin 3) * 64 ≤ (p 2).val ∧ (p 2).val < win0_2.index _ (2 : Fin 3) * 64 + 64; rw [e22]; omega

/-- THE ARRAY after the region. -/
theorem final (c : Dev nD) : (dats m 0 c).arrAt 2 cfg0.N = arrayOf (V m c main_v2) (V m c main_v1) :=
  (dats m 0 c).arrAt_eq_of_cover 2 (arrayOf (V m c main_v2) (V m c main_v1)) (fun t _ => flushed_eq m c t) covered

/-! ## The host operations around the region -/

/-- The weight matrix as the host forms it from `vk`: the product of `vk` with its transpose. -/
def weights (vk : FVec Ideal S64x16 .f32) : FVec Ideal S64x64 .f32 :=
  Host.dotGeneral (F := Ideal) dot_S64x16_S16x64_S64x64_1_0_0_1_n_n none vk
    (transpose S16x64 [1, 0] vk transposes_S64x16_S16x64_1_0 : FVec Ideal S16x64 .f32)

/-- The region finds the input transposed to (latent, batch, field) … -/
theorem entry_x (c : Dev nD) : (V m c main_v2 : S16x1024x64.Idx → EReal)
    = transpose S16x1024x64 [2, 0, 1] (m ((c.tc : Thread nD τ).loc main_arg0)) transposes_S1024x64x16_S16x1024x64_2_0_1 := by
  show StableHlo.after hostOps0 (fun b => m (c, b)) (Proc.devRef .tc main_v2) = _
  after_results

/-- … and the weight matrix formed from `vk`. -/
theorem entry_w (c : Dev nD) : (V m c main_v1 : S64x64.Idx → EReal) = weights (m ((c.tc : Thread nD τ).loc main_arg1)) := by
  show StableHlo.after hostOps0 (fun b => m (c, b)) (Proc.devRef .tc main_v1) = _
  after_results
  rfl

/-- The transposed input at (k, b, i) is the input at (b, i, k). -/
theorem xt_apply (x : S1024x64x16.Idx → EReal) (k : Fin 16) (b : Fin 1024) (i : Fin 64) :
    transpose S16x1024x64 [2, 0, 1] x transposes_S1024x64x16_S16x1024x64_2_0_1 (ix3 k b i) = x (ix3 b i k) :=
  transpose_apply _ x _ _ _ fun a => match a with | ⟨0, _⟩ => rfl | ⟨1, _⟩ => rfl | ⟨2, _⟩ => rfl

/-- The result transposed back: at (b, i, k) the region's array at (k, b, i). -/
theorem out_apply (y : S16x1024x64.Idx → EReal) (b : Fin 1024) (i : Fin 64) (k : Fin 16) :
    transpose S1024x64x16 [1, 2, 0] y transposes_S16x1024x64_S1024x64x16_1_2_0 (ix3 b i k) = y (ix3 k b i) :=
  transpose_apply _ y _ _ _ fun a => match a with | ⟨0, _⟩ => rfl | ⟨1, _⟩ => rfl | ⟨2, _⟩ => rfl

/-- The region's array transposed back is the pairwise-attention result of the arguments. -/
theorem result_eq (x : S1024x64x16.Idx → EReal) (wm : S64x64.Idx → EReal) :
    transpose S1024x64x16 [1, 2, 0]
      (arrayOf (transpose S16x1024x64 [2, 0, 1] x transposes_S1024x64x16_S16x1024x64_2_0_1) wm)
      transposes_S16x1024x64_S1024x64x16_1_2_0 = Cert.Attn.result x wm := by
  funext p
  obtain ⟨b, i, k, rfl⟩ : ∃ (b : Fin 1024) (i : Fin 64) (k : Fin 16), p = ix3 b i k := ⟨p 0, p 1, p 2, eq_ix3 p⟩
  rw [out_apply, Cert.Attn.result_apply, arrayOf_apply]
  exact congrArg₂ Cert.Attn.attnRow (funext fun j => by rw [xt_apply, xt_apply]) (funext fun j => by rw [xt_apply, xt_apply])

/-- What @main's result buffer holds after the lines that follow the region. -/
theorem tail_eq (c : Dev nD) :
    Pipeline.afterTail₀ cfgs (dats m) 0 (V0 m) [hostOps1] c main_v4
      = Cert.Attn.result (m ((c.tc : Thread nD τ).loc main_arg0)) (weights (m ((c.tc : Thread nD τ).loc main_arg1))) := by
  unfold Pipeline.afterTail₀
  show StableHlo.after hostOps1 _ (Proc.devRef .tc main_v4) = _
  after_results
  rw [(Pipeline.withArrays_arr spec0 launch0.win.arr_inj c _ _ 2).trans (final m c), entry_x, entry_w]
  exact result_eq _ _

/-- THE KERNEL'S RUN, READ: the result buffer at the pairwise-attention result of the arguments, the arguments
    unchanged. -/
theorem run : θ_run defs (onTc (τ := τ) (main (F := Ideal))) ⟨m, fun _ => 0, ρ⟩ fun r => ∀ c : Dev nD,
      r.2.mem ((c.tc : Thread nD τ).loc main_v4)
        = Cert.Attn.result (m ((c.tc : Thread nD τ).loc main_arg0)) (weights (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Attn.K

end
-- ==== Proof.RefRead.lean ====
/-
  The reference read at one output element. At (b, i, k) the reference's result is the row form `attnRowRef` of the
  row of scores s j = x[b,i,k] · x[b,j,k] and weighted scores sw j = s j · W[i,j] (j over the 64 positions), where
  W = vk · vkᵀ is the reference's own 64 × 64 contraction, left unopened. The layout operations (transposes and
  broadcasts) only move indices; the two sums and the maximum run over the last axis of the [1024, 16, 64, 64] array.
  Also: W has real entries when vk has.
-/
import proofs.«117543_j31997506355237_2_alg».proof.Proof.Gen.ReferenceIdeal.Read
import proofs.«117543_j31997506355237_2_alg».proof.Proof.SoftmaxLaw
import Idealize.ShloMosaic.Lib.ValueIdx
import Idealize.ShloMosaic.Lib.Pipeline.Value
import Idealize.ShloMosaic.PureOps.Ideal.Laws
import Idealize.ShloMosaic.PureOps.Reduce

noncomputable section

namespace Cert.Attn.Ref

open Idealize.ShloMosaic Idealize.ShloMosaic.ValueIdx Cert.ReferenceIdeal Cert.ReferenceIdeal.Read

variable (x0 : (⟨S1024x64x16, .f32⟩ : BufTy).Contents (Elt Ideal)) (x1 : (⟨S64x16, .f32⟩ : BufTy).Contents (Elt Ideal))
variable (b : Fin 1024) (k : Fin 16) (i j : Fin 64)

/-- The score array at (b, k, i, j): x[b,i,k] · x[b,j,k]. -/
theorem v5_at : val_main_v5 (F := Ideal) x0 (ix4 b k i j) = x0 (ix3 b i k) * x0 (ix3 b j k) := by
  rw [val_main_v5_apply, val_main_v3_apply, val_main_v4_apply, val_main_v2_apply]
  simp only [val_main_v1_apply, val_main_v0_apply]
  have e1 : idx_main_v0 (idx_main_v1 (idx_main_v3 (ix4 b k i j))) = ix3 b i k :=
    funext fun a => Fin.ext (by match a with | ⟨0, _⟩ => rfl | ⟨1, _⟩ => rfl | ⟨2, _⟩ => rfl)
  have e2 : idx_main_v0 (idx_main_v1 (idx_main_v2 (idx_main_v4 (ix4 b k i j)))) = ix3 b j k :=
    funext fun a => Fin.ext (by match a with | ⟨0, _⟩ => rfl | ⟨1, _⟩ => rfl | ⟨2, _⟩ => rfl)
  rw [e1, e2]
  rfl

/-- The weighted score array at (b, k, i, j): the score times W[i,j]. -/
theorem v10_at : val_main_v10 (F := Ideal) x0 x1 (ix4 b k i j)
    = x0 (ix3 b i k) * x0 (ix3 b j k) * val_main_v7 (F := Ideal) x1 (ix2 i j) := by
  rw [val_main_v10_apply, v5_at, val_main_v9_apply, val_main_v8_apply]
  have e : idx_main_v8 (idx_main_v9 (ix4 b k i j)) = ix2 i j :=
    funext fun a => Fin.ext (by match a with | ⟨0, _⟩ => rfl | ⟨1, _⟩ => rfl)
  rw [e]
  rfl

/-- The last axis of the [1024, 16, 64, 64] array is the reduced one. -/
theorem red3 : S1024x16x64x64.Reduces [3] S1024x16x64 := by decide

/-- The index over (b, k, i) with j inserted on the reduced axis is (b, k, i, j). -/
theorem lift_at : red3.lift (ix3 b k i) j = ix4 b k i j :=
  funext fun a => Fin.ext (by match a with | ⟨0, _⟩ => rfl | ⟨1, _⟩ => rfl | ⟨2, _⟩ => rfl | ⟨3, _⟩ => rfl)

/-- The reduce by maximum at (b, k, i): the row maximum of the weighted scores. -/
theorem v11_at : val_main_v11 (F := Ideal) x0 x1 (ix3 b k i)
    = Cert.Attn.rowMax (fun j : Fin 64 => x0 (ix3 b i k) * x0 (ix3 b j k) * val_main_v7 (F := Ideal) x1 (ix2 i j)) := by
  unfold val_main_v11
  rw [Host.reduce_eq_fold_single FloatOps.maximumf _ _ _ red3 _ (ix3 b k i)]
  have e : (val_main_v10 (F := Ideal) x0 x1 ∘ red3.lift (ix3 b k i))
      = fun j : Fin 64 => x0 (ix3 b i k) * x0 (ix3 b j k) * val_main_v7 (F := Ideal) x1 (ix2 i j) :=
    funext fun (j : Fin 64) =>
      (congrArg (val_main_v10 (F := Ideal) x0 x1) (lift_at b k i j)).trans (v10_at x0 x1 b k i j)
  rw [e]
  rfl

/-- The maximum joined with −∞ at (b, k, i). -/
theorem v13_at : val_main_v13 (F := Ideal) x0 x1 (ix3 b k i)
    = max (Ideal.ofBits .f32 0xFF800000#32)
        (Cert.Attn.rowMax (fun j : Fin 64 => x0 (ix3 b i k) * x0 (ix3 b j k) * val_main_v7 (F := Ideal) x1 (ix2 i j))) := by
  rw [val_main_v13_apply, val_main_v12_apply, val_main_cst_0_apply, v11_at]
  rfl

/-- The shifted exponential at (b, k, i, j). -/
theorem v17_at : val_main_v17 (F := Ideal) x0 x1 (ix4 b k i j)
    = Ideal.exp (x0 (ix3 b i k) * x0 (ix3 b j k) * val_main_v7 (F := Ideal) x1 (ix2 i j)
        - max (Ideal.ofBits .f32 0xFF800000#32)
            (Cert.Attn.rowMax (fun j : Fin 64 => x0 (ix3 b i k) * x0 (ix3 b j k) * val_main_v7 (F := Ideal) x1 (ix2 i j)))) := by
  rw [val_main_v17_apply, val_main_v16_apply, v10_at, val_main_v15_apply, val_main_v14_apply]
  have e : idx_main_v14 (idx_main_v15 (ix4 b k i j)) = ix3 b k i :=
    funext fun a => Fin.ext (by match a with | ⟨0, _⟩ => rfl | ⟨1, _⟩ => rfl | ⟨2, _⟩ => rfl)
  rw [e, v13_at]
  rfl

/-- The sum of the shifted exponentials at (b, k, i), started at the pattern of 0.0. -/
theorem v18_at : val_main_v18 (F := Ideal) x0 x1 (ix3 b k i)
    = Ideal.ofBits .f32 0x00000000#32 + ∑ j' : Fin 64,
        Ideal.exp (x0 (ix3 b i k) * x0 (ix3 b j' k) * val_main_v7 (F := Ideal) x1 (ix2 i j')
          - max (Ideal.ofBits .f32 0xFF800000#32)
              (Cert.Attn.rowMax (fun j : Fin 64 => x0 (ix3 b i k) * x0 (ix3 b j k) * val_main_v7 (F := Ideal) x1 (ix2 i j)))) := by
  rw [val_main_v18_apply, val_main_cst_1_apply]
  refine congrArg₂ (· + ·) rfl (Finset.sum_congr rfl fun j' _ => ?_)
  have e : idx_main_v18 (ix3 b k i) j' = ix4 b k i j' :=
    funext fun a => Fin.ext (by match a with | ⟨0, _⟩ => rfl | ⟨1, _⟩ => rfl | ⟨2, _⟩ => rfl | ⟨3, _⟩ => rfl)
  rw [e, v17_at]

/-- The softmax weight times the score at (b, k, i, j). -/
theorem v22_at : val_main_v22 (F := Ideal) x0 x1 (ix4 b k i j)
    = x0 (ix3 b i k) * x0 (ix3 b j k) * Ideal.div
        (Ideal.exp (x0 (ix3 b i k) * x0 (ix3 b j k) * val_main_v7 (F := Ideal) x1 (ix2 i j)
          - max (Ideal.ofBits .f32 0xFF800000#32)
              (Cert.Attn.rowMax (fun j : Fin 64 => x0 (ix3 b i k) * x0 (ix3 b j k) * val_main_v7 (F := Ideal) x1 (ix2 i j)))))
        (Ideal.ofBits .f32 0x00000000#32 + ∑ j' : Fin 64,
          Ideal.exp (x0 (ix3 b i k) * x0 (ix3 b j' k) * val_main_v7 (F := Ideal) x1 (ix2 i j')
            - max (Ideal.ofBits .f32 0xFF800000#32)
                (Cert.Attn.rowMax (fun j : Fin 64 => x0 (ix3 b i k) * x0 (ix3 b j k) * val_main_v7 (F := Ideal) x1 (ix2 i j))))) := by
  rw [val_main_v22_apply, v5_at, val_main_v21_apply, v17_at, val_main_v20_apply, val_main_v19_apply]
  have e : idx_main_v19 (idx_main_v20 (ix4 b k i j)) = ix3 b k i :=
    funext fun a => Fin.ext (by match a with | ⟨0, _⟩ => rfl | ⟨1, _⟩ => rfl | ⟨2, _⟩ => rfl)
  rw [e, v18_at]
  rfl

/-- THE REFERENCE AT (b, i, k): the reference's row form of the scores and weighted scores of that element. -/
theorem ref_apply (x0 : (⟨S1024x64x16, .f32⟩ : BufTy).Contents (Elt Ideal)) (x1 : (⟨S64x16, .f32⟩ : BufTy).Contents (Elt Ideal))
    (b : Fin 1024) (i : Fin 64) (k : Fin 16) :
    val_main_v24 (F := Ideal) x0 x1 (ix3 b i k)
      = Cert.Attn.attnRowRef (fun j : Fin 64 => x0 (ix3 b i k) * x0 (ix3 b j k))
          (fun j : Fin 64 => x0 (ix3 b i k) * x0 (ix3 b j k) * val_main_v7 (F := Ideal) x1 (ix2 i j)) := by
  rw [val_main_v24_apply]
  have e : idx_main_v24 (ix3 b i k) = ix3 b k i :=
    funext fun a => Fin.ext (by match a with | ⟨0, _⟩ => rfl | ⟨1, _⟩ => rfl | ⟨2, _⟩ => rfl)
  rw [e, val_main_v23_apply, val_main_cst_2_apply]
  unfold Cert.Attn.attnRowRef
  refine congrArg₂ (· + ·) rfl (Finset.sum_congr rfl fun j _ => ?_)
  have e' : idx_main_v23 (ix3 b k i) j = ix4 b k i j :=
    funext fun a => Fin.ext (by match a with | ⟨0, _⟩ => rfl | ⟨1, _⟩ => rfl | ⟨2, _⟩ => rfl | ⟨3, _⟩ => rfl)
  rw [e', v22_at]

/-- W = vk · vkᵀ has real entries when vk has: a finite sum of products of reals. -/
theorem W_real (x1 : (⟨S64x16, .f32⟩ : BufTy).Contents (Elt Ideal)) (h1 : ∀ p, ∃ r : ℝ, x1 p = (r : EReal)) (p : S64x64.Idx) :
    ∃ r : ℝ, val_main_v7 (F := Ideal) x1 p = (r : EReal) := by
  choose r hr using h1
  rw [val_main_v7_apply]
  simp only [val_main_v6_apply, hr, ← EReal.coe_mul]
  exact ⟨_, Cert.Attn.coe_sum _⟩

end Cert.Attn.Ref

end
-- ==== Proof.FiniteInputs.lean ====
/-
  The precondition read back. `finite_inputs` says |x| < +∞ at every entry of both arguments (each `all` a
  reduction by `and` from 1, the two joined by `and`). On the extended reals |x| = max x (−x), which is +∞ at
  both infinities and a real at a real; so the predicate being all ones says every entry of both arrays is a real.
-/
import proofs.«117543_j31997506355237_2_alg».proof.Pre_finite_inputs
import proofs.«117543_j31997506355237_2_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Attn.Fin

open Idealize.ShloMosaic Cert.Pre_finite_inputs

/-- The rank-0 shape has one index. -/
instance : Subsingleton S_.Idx := ⟨fun a b => funext fun d => d.elim0⟩

/-- The f32 pattern of +∞ denotes the top of the extended reals. -/
theorem ofBits_pos_inf : Ideal.ofBits .f32 0x7F800000#32 = (⊤ : EReal) := by
  simp [Ideal.ofBits, Ideal.ieee]

/-- An extended real whose absolute value max x (−x) is below +∞ is a real. -/
theorem real_of_abs_lt (x : EReal)
    (h : Ideal.cmp .olt (max x (-x)) (Ideal.ofBits .f32 0x7F800000#32) = 1#1) : ∃ r : ℝ, x = (r : EReal) := by
  rw [ofBits_pos_inf] at h
  induction x using EReal.rec with
  | bot => exact absurd h (by simp [Ideal.cmp])
  | coe r => exact ⟨r, rfl⟩
  | top => exact absurd h (by simp [Ideal.cmp])

/-- THE PRECONDITION DECODED: every entry of both arguments is a real. -/
theorem real_of_pre [Cert.Pre_finite_inputs.Facts] (x0 : FVec Ideal S1024x64x16 .f32) (x1 : FVec Ideal S64x16 .f32)
    (h : Cert.Pre_finite_inputs.fn (F := Ideal) x0 x1 = (fun _ => 1#1)) :
    (∀ p, ∃ r : ℝ, x0 p = (r : EReal)) ∧ (∀ p, ∃ r : ℝ, x1 p = (r : EReal)) := by
  have e := congrFun h ValueIdx.ix0
  dsimp only [Cert.Pre_finite_inputs.fn, andi] at e
  obtain ⟨e0, e1⟩ := IntOp.andi_eq_one.1 e
  refine ⟨fun p => ?_, fun p => ?_⟩
  · have hp := Host.reduce_andi_all _ _ _ _ _ e0 p
    exact real_of_abs_lt (x0 p) hp
  · have hp := Host.reduce_andi_all _ _ _ _ _ e1 p
    exact real_of_abs_lt (x1 p) hp

end Cert.Attn.Fin

end
-- ==== Proof.lean ====
/-
  Pairwise field attention, K-unrolled in the kernel, against its jnp reference — equal on the extended reals under
  finite inputs.

  Both programs compute, for a batch row b, a field i and a latent index k, with the scores
  `s j = x (b, i, k) · x (b, j, k)` and the weighted scores `sw j = s j · W (i, j)`, `W = vk · vkᵀ`, the shifted
  exponentials `e j = exp (sw j − max_j sw j)` over the 64 fields j. The kernel divides once, after the sums,
  `(∑ j, s j · e j) / (∑ j, e j)`; the reference forms the softmax first, `∑ j, s j · (e j / ∑ e)`. The two are equal
  where every entry is a real number — then the maximum is real, the exponentials are positive reals and their sum is a
  positive real, so the quotient distributes over the finite sum — and that is what the precondition gives
  (Proof/SoftmaxLaw.lean, Proof/FiniteInputs.lean).

  The kernel's side: one pass of its loop as a pure function (Proof/Slab.lean) read at an index (Proof/SlabAt.lean), the
  output block as the sixteen passes' slabs read back from the scratch buffer (Proof/Block.lean), the blocks tiling the
  result and the host's transposes around the region (Proof/KernelValue.lean). The reference's side: its twenty-nine host
  operations read at an index (Proof/RefRead.lean, over the generated reading of each operation). The weight matrix is
  the same host product in both programs and is never opened, except to see that its entries are real.
  The three frames are the generated ones (the reference's is its run with the result dropped); the idealization rewrote
  nothing, so `preserves` is `True`.
-/
import proofs.«117543_j31997506355237_2_alg».proof.Defs
import proofs.«117543_j31997506355237_2_alg».proof.Proof.Gen.Kernel
import proofs.«117543_j31997506355237_2_alg».proof.Proof.Gen.Kernel.Skeleton
import proofs.«117543_j31997506355237_2_alg».proof.Proof.Gen.Kernel.Launch
import proofs.«117543_j31997506355237_2_alg».proof.Proof.Gen.Kernel.Points
import proofs.«117543_j31997506355237_2_alg».proof.Proof.Gen.Kernel.Frame
import proofs.«117543_j31997506355237_2_alg».proof.Proof.Gen.KernelIdeal
import proofs.«117543_j31997506355237_2_alg».proof.Proof.Gen.KernelIdeal.Skeleton
import proofs.«117543_j31997506355237_2_alg».proof.Proof.Gen.KernelIdeal.Launch
import proofs.«117543_j31997506355237_2_alg».proof.Proof.Gen.KernelIdeal.Points
import proofs.«117543_j31997506355237_2_alg».proof.Proof.Gen.KernelIdeal.Frame
import proofs.«117543_j31997506355237_2_alg».proof.Proof.Gen.ReferenceIdeal
import proofs.«117543_j31997506355237_2_alg».proof.Proof.Gen.Pre_finite_inputs
import proofs.«117543_j31997506355237_2_alg».proof.Proof.Gen.ReferenceIdeal.Read
import proofs.«117543_j31997506355237_2_alg».proof.Proof.KernelValue
import proofs.«117543_j31997506355237_2_alg».proof.Proof.RefRead
import proofs.«117543_j31997506355237_2_alg».proof.Proof.FiniteInputs
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two programs form the weight matrix by the same host product of `vk` with its transpose. -/
theorem weights_eq (vk : Cert.KernelIdeal.S64x16.Idx → EReal) :
    Cert.Attn.K.weights vk = Cert.ReferenceIdeal.Read.val_main_v7 (F := Ideal) vk := rfl

/-- A product of two reals, in the extended reals, is a real. -/
theorem real_mul {a b : EReal} (ha : ∃ r : ℝ, a = (r : EReal)) (hb : ∃ r : ℝ, b = (r : EReal)) :
    ∃ r : ℝ, a * b = (r : EReal) := by
  obtain ⟨r, rfl⟩ := ha
  obtain ⟨r', rfl⟩ := hb
  exact ⟨r * r', (EReal.coe_mul r r').symm⟩

/-- On real inputs the reference's result is the pairwise-attention result: its rows are the kernel's rows by the law. -/
theorem reference_eq (x : Cert.ReferenceIdeal.S1024x64x16.Idx → EReal) (vk : Cert.ReferenceIdeal.S64x16.Idx → EReal)
    (hx : ∀ p, ∃ r : ℝ, x p = (r : EReal)) (hvk : ∀ p, ∃ r : ℝ, vk p = (r : EReal)) :
    Cert.ReferenceIdeal.Read.val_main_v24 (F := Ideal) x vk
      = Cert.Attn.result x (Cert.ReferenceIdeal.Read.val_main_v7 (F := Ideal) vk) := by
  funext p
  obtain ⟨b, i, k, rfl⟩ : ∃ (b : Fin 1024) (i : Fin 64) (k : Fin 16), p = ix3 b i k := ⟨p 0, p 1, p 2, eq_ix3 p⟩
  rw [Cert.Attn.Ref.ref_apply, Cert.Attn.result_apply]
  exact Cert.Attn.attnRowRef_eq _ _ (fun j => real_mul (hx _) (hx _))
    (fun j => real_mul (real_mul (hx _) (hx _)) (Cert.Attn.Ref.W_real vk hvk _))

/-- At the extended reals the kernel's result buffer ends at the pairwise-attention result of its arguments (the kernel's
    run, read) and the reference's at its own composed term of arguments that agree, which under finite inputs is the
    same function. -/
theorem algebraic : Cert.algebraic_KernelIdeal_ReferenceIdeal := by
  intro m ρ m' ρ' hpre hagree
  refine ⟨_, Cert.Attn.K.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hvk⟩ := Cert.Attn.Fin.real_of_pre _ _ (hpre c)
  rw [Cert.ReferenceIdeal.Read.val_main_v24_eq, (hagree c).1, (hagree c).2, reference_eq _ _ hx hvk]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
